-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x16 : Shape := ⟨3, ![8192, 128, 16]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S2048x64 : Shape := ⟨2, ![2048, 64]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8192x128x16 : S_.BroadcastsInDim S8192x128x16 (![] : Fin 0 → Fin S8192x128x16.rank)
  reducesTo_S8192x128x16_S_d0_1_2 : S8192x128x16.ReducesTo [0, 1, 2] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x2048 .f32) (main_arg8 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S64 .f32) (main_arg5 : FVec F S2048x64 .f32) (main_arg6 : FVec F S2048 .f32) (main_arg7 : FVec F S512x2048 .f32) (main_arg8 : FVec F S512 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x128x16 .f32) (main_arg1 : FVec F S128x2048 .f32) (main_arg2 : FVec F S128 .f32) (main_arg3 : FVec F S64x128 .f32) (main_arg4 : FVec F S64 .f32) (main_arg5 : FVec F S2048x64 .f32) (main_arg6 : FVec F S2048 .f32) (main_arg7 : FVec F S512x2048 .f32) (main_arg8 : FVec F S512 .f32) : IVec S_ 1 :=
  let main_v0 : FVec F S8192x128x16 .f32 := Host.absf main_arg0
  let main_cst : FVec F S_ .f32 := constant S_ .f32 0x7F800000#32
  let main_v1 : FVec F S8192x128x16 .f32 := broadcastInDim S8192x128x16 ![] bcast_S_S8192x128x16 main_cst
  let main_v2 : IVec S8192x128x16 1 := cmpf .olt main_v0 main_v1
  let main_c : IVec S_ 1 := constantI S_ 1 1#1
  let main_v3 : IVec S_ 1 := (fun x v => Host.reduce IntOp.andi x v reducesTo_S8192x128x16_S_d0_1_2 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S8192x128x16 : Shape := ⟨3, ![8192, 128, 16]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S2048x64 : Shape := ⟨2, ![2048, 64]⟩
abbrev S2048 : Shape := ⟨1, ![2048]⟩
abbrev S512x2048 : Shape := ⟨2, ![512, 2048]⟩
abbrev S512 : Shape := ⟨1, ![512]⟩
abbrev S8192x2048 : Shape := ⟨2, ![8192, 2048]⟩
abbrev S2048x128 : Shape := ⟨2, ![2048, 128]⟩
abbrev S128x64 : Shape := ⟨2, ![128, 64]⟩
abbrev S2048x512 : Shape := ⟨2, ![2048, 512]⟩
abbrev S_ : Shape := ⟨0, ![]⟩
abbrev S64x2048 : Shape := ⟨2, ![64, 2048]⟩
abbrev S192x2048 : Shape := ⟨2, ![192, 2048]⟩
abbrev S8192x512 : Shape := ⟨2, ![8192, 512]⟩
abbrev S1024x2048 : Shape := ⟨2, ![1024, 2048]⟩
abbrev S1024x512 : Shape := ⟨2, ![1024, 512]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024x192 : Shape := ⟨2, ![1024, 192]⟩
abbrev S1x512 : Shape := ⟨2, ![1, 512]⟩

abbrev nBuf : Space → Nat
  | .hbm => 25
  | .vmem => 14
  | .smem => 0
  | _ => 0

abbrev bufTy : (tb : Table) → Fin (tcTables nBuf tb) → BufTy
  | .hbm, ⟨0, _⟩ => ⟨S8192x128x16, .f32⟩
  | .hbm, ⟨1, _⟩ => ⟨S128x2048, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S8192x2048, .f32⟩
  | .hbm, ⟨10, _⟩ => ⟨S2048x128, .f32⟩
  | .hbm, ⟨11, _⟩ => ⟨S2048x128, .bf16⟩
  | .hbm, ⟨12, _⟩ => ⟨S128x64, .f32⟩
  | .hbm, ⟨13, _⟩ => ⟨S128x64, .bf16⟩
  | .hbm, ⟨14, _⟩ => ⟨S64x128, .bf16⟩
  | .hbm, ⟨15, _⟩ => ⟨S2048x512, .f32⟩
  | .hbm, ⟨16, _⟩ => ⟨S2048x512, .bf16⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S64, .f32⟩
  | .hbm, ⟨21, _⟩ => ⟨S64x2048, .f32⟩
  | .hbm, ⟨22, _⟩ => ⟨S192x2048, .f32⟩
  | .hbm, ⟨23, _⟩ => ⟨S192x2048, .bf16⟩
  | .hbm, ⟨24, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S128, .f32⟩
  | .local _ .vmem, ⟨4, _⟩ => ⟨S128x64, .bf16⟩
  | .local _ .vmem, ⟨5, _⟩ => ⟨S64, .f32⟩
  | .local _ .vmem, ⟨6, _⟩ => ⟨S64x128, .bf16⟩
  | .local _ .vmem, ⟨7, _⟩ => ⟨S128, .f32⟩
  | .local _ .vmem, ⟨8, _⟩ => ⟨S64, .f32⟩
  | .local _ .vmem, ⟨9, _⟩ => ⟨S192x2048, .bf16⟩
  | .local _ .vmem, ⟨10, _⟩ => ⟨S2048x512, .bf16⟩
  | .local _ .vmem, ⟨11, _⟩ => ⟨S512, .f32⟩
  | .local _ .vmem, ⟨12, _⟩ => ⟨S1024x512, .f32⟩
  | .local _ .vmem, ⟨13, _⟩ => ⟨S1024x512, .f32⟩
  | _, _ => ⟨S8192x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x128x16_S8192x2048 : S8192x128x16.ShapeCasts S8192x2048
  transposes_S128x2048_S2048x128_1_0 : S128x2048.Transposes [1, 0] S2048x128
  bitsLt_bf16_f32 : FTy.bits .bf16 < FTy.bits .f32
  transposes_S64x128_S128x64_1_0 : S64x128.Transposes [1, 0] S128x64
  transposes_S512x2048_S2048x512_1_0 : S512x2048.Transposes [1, 0] S2048x512
  reducesTo_S128x2048_S128_d1 : S128x2048.ReducesTo [1] S128
  h_S_ : 0 < S_.numel
  reducesTo_S2048x64_S64_d0 : S2048x64.ReducesTo [0] S64
  transposes_S2048x64_S64x2048_1_0 : S2048x64.Transposes [1, 0] S64x2048
  concatenates_S64x2048_S128x2048_S192x2048_d0 : Shape.Concatenates [S64x2048, S128x2048] S192x2048 0
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S128_S128 : S128.ShapeCasts S128
  shapeCasts_S64_S64 : S64.ShapeCasts S64
  inb_S192x2048_S192x2048_0_0 : ∀ a, (![0, 0] : Fin 2 → Nat) a + S192x2048.size a ≤ S192x2048.size a
  h_S192x2048 : 0 < S192x2048.numel
  shapeCasts_S192x2048_S192x2048 : S192x2048.ShapeCasts S192x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S128_S1x128 : S128.ShapeCasts S1x128
  broadcasts_S1x128_S1024x128 : S1x128.Broadcasts S1024x128
  natLt_1_32 : 1 < 32
  shapeCasts_S64_S1x64 : S64.ShapeCasts S1x64
  broadcasts_S1x64_S1024x64 : S1x64.Broadcasts S1024x64
  concatenates_S1024x64_S1024x128_S1024x192_d1 : Shape.Concatenates [S1024x64, S1024x128] S1024x192 1
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S2048x128_S1024x128_1_0_0_1_n_n_wf : DotDims.WF S1024x2048 S2048x128 S1024x128 [1] [0] [0] [1] [] []
  dot_S1024x128_S128x64_S1024x64_1_0_0_1_n_n_wf : DotDims.WF S1024x128 S128x64 S1024x64 [1] [0] [0] [1] [] []
  dot_S1024x64_S64x128_S1024x128_1_0_0_1_n_n_wf : DotDims.WF S1024x64 S64x128 S1024x128 [1] [0] [0] [1] [] []
  dot_S1024x192_S192x2048_S1024x2048_1_0_0_1_n_n_wf : DotDims.WF S1024x192 S192x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192x2048.size a ≤ S192x2048.size a
  hwx0_8 : ∀ i : grid0.Coords, EltTy.bits .bf16 = 32 ∨ (Rect.block (s := S192x2048) S192x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S8192x512.size a
  hwx0_11 : ∀ i : grid0.Coords, EltTy.bits .f32 = 32 ∨ (Rect.block (s := S8192x512) S1024x512.size (cc0_transform_11 i) (hinb0_11 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x192_S192x2048_S1024x2048_1_0_0_1_n_n : DotDims S1024x192 S192x2048 S1024x2048 where
  lhsContracting := [1]
  rhsContracting := [0]
  lhsNonContracting := [0]
  rhsNonContracting := [1]
  lhsBatch := []
  rhsBatch := []
  wf := dot_S1024x192_S192x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S192x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x128x16 : Shape := ⟨3, ![8192, 128, 16]⟩
abbrev S128x2048 : Shape := ⟨2, ![128, 2048]⟩
abbrev S128 : Shape := ⟨1, ![128]⟩
abbrev S64x128 : Shape := ⟨2, ![64, 128]⟩
abbrev S64 : Shape := ⟨1, ![64]⟩
abbrev S2048x64 : Shape := ⟨2, ![2048, 64]⟩
abbrev S2048 : Shape := ⟨1, ![2048]⟩
abbrev S512x2048 : Shape := ⟨2, ![512, 2048]⟩
abbrev S512 : Shape := ⟨1, ![512]⟩
abbrev S8192x2048 : Shape := ⟨2, ![8192, 2048]⟩
abbrev S2048x128 : Shape := ⟨2, ![2048, 128]⟩
abbrev S8192x128 : Shape := ⟨2, ![8192, 128]⟩
abbrev S1x128 : Shape := ⟨2, ![1, 128]⟩
abbrev S_ : Shape := ⟨0, ![]⟩
abbrev S128x64 : Shape := ⟨2, ![128, 64]⟩
abbrev S8192x64 : Shape := ⟨2, ![8192, 64]⟩
abbrev S1x64 : Shape := ⟨2, ![1, 64]⟩
abbrev S64x2048 : Shape := ⟨2, ![64, 2048]⟩
abbrev S2048x512 : Shape := ⟨2, ![2048, 512]⟩
abbrev S8192x512 : Shape := ⟨2, ![8192, 512]⟩
abbrev S1x512 : Shape := ⟨2, ![1, 512]⟩

abbrev nBuf : Space → Nat
  | .hbm => 53
  | .vmem => 0
  | .smem => 0
  | _ => 0

abbrev bufTy : (tb : Table) → Fin (tcTables nBuf tb) → BufTy
  | .hbm, ⟨0, _⟩ => ⟨S8192x128x16, .f32⟩
  | .hbm, ⟨1, _⟩ => ⟨S128x2048, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S8192x2048, .f32⟩
  | .hbm, ⟨10, _⟩ => ⟨S2048x128, .f32⟩
  | .hbm, ⟨11, _⟩ => ⟨S8192x128, .f32⟩
  | .hbm, ⟨12, _⟩ => ⟨S1x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .i1⟩
  | .hbm, ⟨18, _⟩ => ⟨S8192x128, .f32⟩
  | .hbm, ⟨19, _⟩ => ⟨S8192x128, .f32⟩
  | .hbm, ⟨20, _⟩ => ⟨S128x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192x64, .f32⟩
  | .hbm, ⟨27, _⟩ => ⟨S8192x64, .i1⟩
  | .hbm, ⟨28, _⟩ => ⟨S8192x64, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S128x64, .f32⟩
  | .hbm, ⟨35, _⟩ => ⟨S8192x64, .f32⟩
  | .hbm, ⟨36, _⟩ => ⟨S8192x64, .f32⟩
  | .hbm, ⟨37, _⟩ => ⟨S64x2048, .f32⟩
  | .hbm, ⟨38, _⟩ => ⟨S8192x2048, .f32⟩
  | .hbm, ⟨39, _⟩ => ⟨S_, .f32⟩
  | .hbm, ⟨40, _⟩ => ⟨S64, .f32⟩
  | .hbm, ⟨41, _⟩ => ⟨S1x64, .f32⟩
  | .hbm, ⟨42, _⟩ => ⟨S8192x64, .f32⟩
  | .hbm, ⟨43, _⟩ => ⟨S8192x64, .f32⟩
  | .hbm, ⟨44, _⟩ => ⟨S8192x128, .f32⟩
  | .hbm, ⟨45, _⟩ => ⟨S8192x128, .f32⟩
  | .hbm, ⟨46, _⟩ => ⟨S8192x2048, .f32⟩
  | .hbm, ⟨47, _⟩ => ⟨S8192x2048, .f32⟩
  | .hbm, ⟨48, _⟩ => ⟨S2048x512, .f32⟩
  | .hbm, ⟨49, _⟩ => ⟨S8192x512, .f32⟩
  | .hbm, ⟨50, _⟩ => ⟨S1x512, .f32⟩
  | .hbm, ⟨51, _⟩ => ⟨S8192x512, .f32⟩
  | .hbm, ⟨52, _⟩ => ⟨S8192x512, .f32⟩
  | _, _ => ⟨S8192x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  shapeCasts_S8192x128x16_S8192x2048 : S8192x128x16.ShapeCasts S8192x2048
  transposes_S128x2048_S2048x128_1_0 : S128x2048.Transposes [1, 0] S2048x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S128x2048_S128_d1 : S128x2048.ReducesTo [1] S128
  h_S_ : 0 < S_.numel
  transposes_S2048x64_S64x2048_1_0 : S2048x64.Transposes [1, 0] S64x2048
  reducesTo_S2048x64_S64_d0 : S2048x64.ReducesTo [0] S64
  transposes_S512x2048_S2048x512_1_0 : S512x2048.Transposes [1, 0] S2048x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x2048_S2048x128_S8192x128_1_0_0_1_n_n_wf : DotDims.WF S8192x2048 S2048x128 S8192x128 [1] [0] [0] [1] [] []
  dot_S8192x128_S128x64_S8192x64_1_0_0_1_n_n_wf : DotDims.WF S8192x128 S128x64 S8192x64 [1] [0] [0] [1] [] []
  dot_S8192x64_S64x2048_S8192x2048_1_0_0_1_n_n_wf : DotDims.WF S8192x64 S64x2048 S8192x2048 [1] [0] [0] [1] [] []
  dot_S8192x64_S64x128_S8192x128_1_0_0_1_n_n_wf : DotDims.WF S8192x64 S64x128 S8192x128 [1] [0] [0] [1] [] []
  dot_S8192x128_S128x2048_S8192x2048_1_0_0_1_n_n_wf : DotDims.WF S8192x128 S128x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x2048_S8192x2048_1_0_0_1_n_n : DotDims S8192x64 S64x2048 S8192x2048 where
  lhsContracting := [1]
  rhsContracting := [0]
  lhsNonContracting := [0]
  rhsNonContracting := [1]
  lhsBatch := []
  rhsBatch := []
  wf := dot_S8192x64_S64x2048_S8192x2048_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x2048_S8192x2048_1_0_0_1_n_n : DotDims S8192x128 S128x2048 S8192x2048 where
  lhsContracting := [1]
  rhsContracting := [0]
  lhsNonContracting := [0]
  rhsNonContracting := [1]
  lhsBatch := []
  rhsBatch := []
  wf := dot_S8192x128_S128x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.Finite.lean ====
/- Finiteness of the inputs, read back as "every entry is a real number".

   The precondition computes, for each of the nine float arrays x, the conjunction over all indices i of
   the comparison |x i| < +∞ (the f32 pattern 0x7F800000 is +∞), and then the conjunction of the nine
   results; the hypothesis is that this single bit is 1. At the extended reals [-∞, +∞] the absolute value
   is max x (-x), so |x| < +∞ excludes x = +∞ (then |x| = +∞) and x = -∞ (then -x = +∞): what is left is a
   real number. Here this is drawn out for the arrays of shapes [128, 2048], [64, 128] and [2048, 64]. -/
import proofs.«105705_j89988154786346_2_alg».proof.Defs
import proofs.«105705_j89988154786346_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.FiniteArgs

open Idealize.ShloMosaic Idealize.SL.Sem

/-- The shape of rank 0 has exactly one index: the empty tuple of coordinates. -/
instance : Subsingleton Cert.Pre_finite_inputs.S_.Idx := ⟨fun a b => funext fun d => d.elim0⟩

/-- The f32 pattern with all exponent bits set, sign and significand zero, denotes +∞. -/
theorem ofBits_inf : Ideal.ofBits .f32 0x7F800000#32 = (⊤ : EReal) := by
  simp [Ideal.ofBits, Ideal.ieee]

/-- The ordered comparison "less than" of extended reals gives the bit 1 only when a < b. -/
theorem lt_of_cmp_olt (a b : EReal) (e : Ideal.cmp .olt a b = 1#1) : a < b := by
  by_contra hn
  have h0 : Ideal.cmp .olt a b = 0#1 := by simp [Ideal.cmp, hn]
  rw [h0] at e
  exact absurd e (by decide)

/-- An extended real whose absolute value max x (-x) is below +∞ is a real number:
    at x = -∞ the maximum is -x = +∞, at x = +∞ it is x = +∞, and neither is below +∞. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x i| < +∞ (the bound being the scalar +∞ broadcast to the shape of x)
    is 1 at the index i, then x i is a real number. -/
theorem elt_real {s : Shape} (hb : Cert.Pre_finite_inputs.S_.BroadcastsInDim s ![]) (x : FVec Ideal s .f32) (i : s.Idx)
    (e : cmpf .olt (Host.absf x) (broadcastInDim s ![] hb (constant Cert.Pre_finite_inputs.S_ .f32 0x7F800000#32)) i = 1#1) :
    ∃ r : ℝ, x i = (r : EReal) := by
  apply real_of_abs_lt_top
  rw [ValueIdx.cmpf_apply, ValueIdx.broadcastInDim_scalar_apply, ValueIdx.constant_apply, ofBits_inf] at e
  exact lt_of_cmp_olt _ _ e

open Cert.Pre_finite_inputs in
/-- The precondition over nine arbitrary arrays. Its value is the left-nested conjunction
    ((((((((p0 ∧ p1) ∧ p2) ∧ p3) ∧ p4) ∧ p5) ∧ p6) ∧ p7) ∧ p8), where pk is the conjunction over all indices
    of the k-th array of |entry| < +∞. If it is 1 then each pk is 1, so each comparison is 1 at every index,
    so every entry is real; stated for the second, fourth and sixth arrays. -/
theorem real_of_fn [Cert.Pre_finite_inputs.Facts]
    (a0 : FVec Ideal S8192x128x16 .f32) (a1 : FVec Ideal S128x2048 .f32) (a2 : FVec Ideal S128 .f32)
    (a3 : FVec Ideal S64x128 .f32) (a4 : FVec Ideal S64 .f32) (a5 : FVec Ideal S2048x64 .f32)
    (a6 : FVec Ideal S2048 .f32) (a7 : FVec Ideal S512x2048 .f32) (a8 : FVec Ideal S512 .f32)
    (h : Cert.Pre_finite_inputs.fn (F := Ideal) a0 a1 a2 a3 a4 a5 a6 a7 a8 = fun _ => 1#1) :
    (∀ i, ∃ r : ℝ, a1 i = (r : EReal)) ∧ (∀ i, ∃ r : ℝ, a3 i = (r : EReal)) ∧ (∀ i, ∃ r : ℝ, a5 i = (r : EReal)) := by
  -- the result has one index; read the hypothesis there and lay the whole chain of operations open
  have h0 := congrFun h ValueIdx.ix0
  dsimp only [fn, fn_part1, fn_part2] at h0
  -- peel the conjunction from the outside: p8, p7, p6 off, then p5, p4 off, then p3, p2 off, then p1
  obtain ⟨h38, -⟩ := IntOp.andi_eq_one.1 h0
  obtain ⟨h33, -⟩ := IntOp.andi_eq_one.1 h38
  obtain ⟨h28, -⟩ := IntOp.andi_eq_one.1 h33
  obtain ⟨h23, h27⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨-, h7⟩ := IntOp.andi_eq_one.1 h8
  -- a conjunction over all indices that is 1 is 1 at each index; there the entry is real
  exact ⟨fun i => elt_real _ a1 i (Host.reduce_andi_all _ _ _ _ _ h7 i),
    fun i => elt_real _ a3 i (Host.reduce_andi_all _ _ _ _ _ h17 i),
    fun i => elt_real _ a5 i (Host.reduce_andi_all _ _ _ _ _ h27 i)⟩

/-- The same at a memory: under the precondition, on every device the arrays of shapes [128, 2048],
    [64, 128] and [2048, 64] hold real numbers only. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg5) i = (r : EReal)) :=
  real_of_fn _ _ _ _ _ _ _ _ _ (h c)

end Cert.FiniteArgs

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.LibMatrixLayout.lean ====
/-
  Three layout facts about matrices, read at an index given by coordinates.

  * A vector of `n` numbers laid out as one row (`[n] → [1, n]`) and repeated down `R` rows reads, at `(r, j)`, its
    entry `j`: how a bias is added to every row of a matrix.
  * Two matrices with the same number of rows set side by side (`[R, a]`, `[R, b]` → `[R, c]`) read, at `(r, q)`,
    the left one at `(r, q)` when `q < a` and the right one at `(r, q - a)` otherwise.
  * Two matrices with the same number of columns set one above the other (`[a, C]`, `[b, C]` → `[c, C]`) read, at
    `(q, d)`, the upper one at `(q, d)` when `q < a` and the lower one at `(q - a, d)` otherwise.
-/
import Idealize.ShloMosaic.Lib.Pipeline.Value
import Idealize.ShloMosaic.Lib.ValueLayout

namespace Idealize.ShloMosaic.MatrixLayout

open Idealize.ShloMosaic Idealize.ShloMosaic.ValueIdx

variable {α : Type}

/-- One row repeated down the rows of a matrix. -/
theorem row_broadcast_apply {R n : ℕ} (v : (⟨1, ![n]⟩ : Shape).Idx → α)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ v h1) h2 (ix2 r j) = v (ix1 j) :=
  (broadcastTo_1b_ab_apply _ h2 r j).trans (shapeCast_a_1a_apply v h1 0 j)

/-- Side by side, left part. -/
theorem beside_left {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : q.val < a) :
    concatenate ⟨2, ![R, c]⟩ 1 [⟨⟨2, ![R, a]⟩, x₁⟩, ⟨⟨2, ![R, b]⟩, x₂⟩] h (ix2 r q) = x₁ (ix2 r ⟨q.val, hq⟩) :=
  concatenate_pair_apply_left (1 : Fin 2) x₁ x₂ h (ix2 r q) rfl (ix2 r ⟨q.val, hq⟩) fun d => by
    match d with
    | ⟨0, _⟩ => rfl
    | ⟨1, _⟩ => rfl

/-- Side by side, right part. -/
theorem beside_right {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : a ≤ q.val)
    (hb : q.val - a < b) :
    concatenate ⟨2, ![R, c]⟩ 1 [⟨⟨2, ![R, a]⟩, x₁⟩, ⟨⟨2, ![R, b]⟩, x₂⟩] h (ix2 r q) = x₂ (ix2 r ⟨q.val - a, hb⟩) :=
  concatenate_pair_apply_right (1 : Fin 2) x₁ x₂ h (ix2 r q) rfl rfl (ix2 r ⟨q.val - a, hb⟩)
    (fun d hd => by
      match d with
      | ⟨0, _⟩ => rfl
      | ⟨1, _⟩ => exact absurd rfl hd)
    (by show q.val - a + a = q.val; omega)

/-- One above the other, upper part. -/
theorem above_upper {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : q.val < a) :
    concatenate ⟨2, ![c, C]⟩ 0 [⟨⟨2, ![a, C]⟩, x₁⟩, ⟨⟨2, ![b, C]⟩, x₂⟩] h (ix2 q d) = x₁ (ix2 ⟨q.val, hq⟩ d) :=
  concatenate_pair_apply_left (0 : Fin 2) x₁ x₂ h (ix2 q d) rfl (ix2 ⟨q.val, hq⟩ d) fun e => by
    match e with
    | ⟨0, _⟩ => rfl
    | ⟨1, _⟩ => rfl

/-- One above the other, lower part. -/
theorem above_lower {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : a ≤ q.val)
    (hb : q.val - a < b) :
    concatenate ⟨2, ![c, C]⟩ 0 [⟨⟨2, ![a, C]⟩, x₁⟩, ⟨⟨2, ![b, C]⟩, x₂⟩] h (ix2 q d) = x₂ (ix2 ⟨q.val - a, hb⟩ d) :=
  concatenate_pair_apply_right (0 : Fin 2) x₁ x₂ h (ix2 q d) rfl rfl (ix2 ⟨q.val - a, hb⟩ d)
    (fun e he => by
      match e with
      | ⟨0, _⟩ => exact absurd rfl he
      | ⟨1, _⟩ => rfl)
    (by show q.val - a + a = q.val; omega)

end Idealize.ShloMosaic.MatrixLayout
-- ==== Proof.RowSpec.lean ====
/-
  The function both programs compute, row by row, and the one law that joins them.

  Fix a row `x` of the flattened input (2048 numbers). Both programs form
    h1 = x · A1 + b1                 (128 numbers),   g1 = [h1 > 0]
    h2 = (h1 * g1) · A2 + b2         (64 numbers),    g2 = [h2 > 0]
    f  = ((g1 * r1) · A2) * g2       (64 numbers: the Jacobian's row sums, pushed forward)
    b  = ((g2 * c3) · A3) * g1       (128 numbers: its column sums, pulled back)
  and then project `v · Ap + bp` (512 numbers), where the reference takes
    v = f · W3T - b · W1                                   (`splitV`)
  while the kernel stacks the two weight matrices into one 192-row matrix and takes ONE product of the
  joined row `(f, 0 - b)` with it                          (`fusedV`).
  A sum over 192 = 64 + 128 terms is the sum of its two parts, so `fusedV` is
  `f · W3T + ∑ j, (0 - b j) * W1 j`; over the extended reals `∑ (0 - b j) * w j = -(∑ b j * w j)` needs the
  terms to be real numbers (`⊤ + ⊥ = ⊥` breaks it otherwise), and they are when `A3`, `c3` and `W1` are real,
  the gates being 0 or 1 (`fusedV_eq_splitV`, `bwd_real`).
-/
import Idealize.ShloMosaic.PureOps.Ideal.Laws
import Idealize.ShloMosaic.Lib.ValueIdx

noncomputable section

namespace Cert.RowSpec

open Idealize.ShloMosaic Idealize.ShloMosaic.ValueIdx

/-- An `a × b` matrix of extended reals, indexed as the printed programs index their arrays. -/
abbrev Mat (a b : Nat) : Type := (⟨2, ![a, b]⟩ : Shape).Idx → EReal
/-- A vector of `a` extended reals. -/
abbrev Col (a : Nat) : Type := (⟨1, ![a]⟩ : Shape).Idx → EReal

/-! ## Real entries -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_zero : IsReal 0 := ⟨0, EReal.coe_zero.symm⟩

/-- The coercion of a finite sum of reals is the sum of the coercions. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem isReal_sum {ι : Type} [Fintype ι] (g : ι → EReal) (h : ∀ i, IsReal (g i)) : IsReal (∑ i, g i) := by
  choose r hr using h
  exact ⟨∑ i, r i, by rw [coe_sum]; exact Finset.sum_congr rfl fun i _ => hr i⟩

/-! ## The gate -/

/-- `1` where `a` is positive, `0` elsewhere: the comparison's bit read as a number. -/
def gate (a : EReal) : EReal := (((Ideal.cmp .ogt a 0).toNat : ℝ) : EReal)

theorem gate_real (a : EReal) : IsReal (gate a) := ⟨_, rfl⟩

/-- The reference's spelling: the bit of `a > 0` converted as an unsigned integer. -/
theorem uitofp_cmpf (a : EReal) :
    FloatOps.uitofp (F := Ideal) .f32 (FloatOps.cmpf (F := Ideal) (φ := .f32) .ogt a (Ideal.ofBits .f32 0x00000000#32)) = gate a := by
  rw [Ideal.ofBits_zero_f32]; rfl

/-- The kernel's spelling: the bit widened to 32 bits by zeros, then converted as a signed integer. One bit
    widened by zeros is `0` or `1` whichever way it is read. -/
theorem sitofp_extui_cmpf (a : EReal) :
    FloatOps.sitofp (F := Ideal) .f32 ((FloatOps.cmpf (F := Ideal) (φ := .f32) .ogt a (Ideal.ofBits .f32 0x00000000#32)).setWidth 32) = gate a := by
  rw [Ideal.ofBits_zero_f32]
  show (((BitVec.setWidth 32 (Ideal.cmp .ogt a 0)).toInt : ℝ) : EReal) = (((Ideal.cmp .ogt a 0).toNat : ℝ) : EReal)
  have key : ∀ b : BitVec 1, (BitVec.setWidth 32 b).toInt = ((b.toNat : ℕ) : ℤ) := by decide
  rw [key, Int.cast_natCast]

/-! ## The stages of one row -/

section Stages

variable (A1 : Mat 2048 128) (b1 : Col 128) (A2 : Mat 128 64) (b2 : Col 64) (A3 : Mat 64 128) (r1 : Col 128) (c3 : Col 64)
  (W3T : Mat 64 2048) (W1 : Mat 128 2048) (Wrc : Mat 192 2048) (Ap : Mat 2048 512) (bp : Col 512)

/-- First layer before the gate. -/
def pre1 (x : Fin 2048 → EReal) (j : Fin 128) : EReal := (∑ k : Fin 2048, x k * A1 (ix2 k j)) + b1 (ix1 j)

/-- Second layer before the gate, from the first layer `h` and its gates `g`. -/
def pre2 (h g : Fin 128 → EReal) (k : Fin 64) : EReal := (∑ j : Fin 128, (h j * g j) * A2 (ix2 j k)) + b2 (ix1 k)

/-- The Jacobian's row sums pushed through the gated second layer. -/
def fwd (g1 : Fin 128 → EReal) (g2 : Fin 64 → EReal) (k : Fin 64) : EReal :=
  (∑ j : Fin 128, (g1 j * r1 (ix1 j)) * A2 (ix2 j k)) * g2 k

/-- Its column sums pulled back through the gated first layer. -/
def bwd (g1 : Fin 128 → EReal) (g2 : Fin 64 → EReal) (j : Fin 128) : EReal :=
  (∑ k : Fin 64, (g2 k * c3 (ix1 k)) * A3 (ix2 k j)) * g1 j

/-- A row of 64 numbers followed by a row of 128. -/
def joined (f : Fin 64 → EReal) (b : Fin 128 → EReal) (q : Fin 192) : EReal :=
  if h : q.val < 64 then f ⟨q.val, h⟩ else b ⟨q.val - 64, by have := q.isLt; omega⟩

/-- The kernel's one product of the joined row with the stacked weights. -/
def fusedV (f : Fin 64 → EReal) (b : Fin 128 → EReal) (d : Fin 2048) : EReal :=
  ∑ q : Fin 192, joined f (fun j => 0 - b j) q * Wrc (ix2 q d)

/-- The reference's difference of two products. -/
def splitV (f : Fin 64 → EReal) (b : Fin 128 → EReal) (d : Fin 2048) : EReal :=
  (∑ k : Fin 64, f k * W3T (ix2 k d)) - (∑ j : Fin 128, b j * W1 (ix2 j d))

/-- The output projection. -/
def proj (v : Fin 2048 → EReal) (o : Fin 512) : EReal := (∑ d : Fin 2048, v d * Ap (ix2 d o)) + bp (ix1 o)

/-- The gates of a row. -/
def gates1 (x : Fin 2048 → EReal) (j : Fin 128) : EReal := gate (pre1 A1 b1 x j)
def gates2 (x : Fin 2048 → EReal) (k : Fin 64) : EReal := gate (pre2 A2 b2 (pre1 A1 b1 x) (gates1 A1 b1 x) k)

/-- The kernel's row: one fused product. -/
def kernelRow (x : Fin 2048 → EReal) (o : Fin 512) : EReal :=
  proj Ap bp (fusedV Wrc (fwd A2 r1 (gates1 A1 b1 x) (gates2 A1 b1 A2 b2 x)) (bwd A3 c3 (gates1 A1 b1 x) (gates2 A1 b1 A2 b2 x))) o

/-- The reference's row: the difference of two products. -/
def refRow (x : Fin 2048 → EReal) (o : Fin 512) : EReal :=
  proj Ap bp (splitV W3T W1 (fwd A2 r1 (gates1 A1 b1 x) (gates2 A1 b1 A2 b2 x)) (bwd A3 c3 (gates1 A1 b1 x) (gates2 A1 b1 A2 b2 x))) o

/-! ## The law -/

/-- The pulled-back column sums are real numbers when the column sums and the second layer's weights are. -/
theorem bwd_real (hc3 : ∀ k, IsReal (c3 (ix1 k))) (hA3 : ∀ k j, IsReal (A3 (ix2 k j)))
    (g1 : Fin 128 → EReal) (g2 : Fin 64 → EReal) (hg1 : ∀ j, IsReal (g1 j)) (hg2 : ∀ k, IsReal (g2 k)) (j : Fin 128) :
    IsReal (bwd A3 c3 g1 g2 j) :=
  (isReal_sum _ fun k => ((hg2 k).mul (hc3 k)).mul (hA3 k j)).mul (hg1 j)

/-- A sum over 192 terms is the sum over the first 64 and the last 128. -/
theorem sum_192 (F : Fin 192 → EReal) :
    ∑ q : Fin 192, F q = (∑ k : Fin 64, F ⟨k.val, by have := k.isLt; omega⟩) + ∑ j : Fin 128, F ⟨64 + j.val, by have := j.isLt; omega⟩ := by
  exact Fin.sum_univ_add (a := 64) (b := 128) (f := F)

/-- With the stacked weights the two matrices one above the other, and the pulled-back family and the lower
    matrix real, the kernel's fused product is the reference's difference. -/
theorem fusedV_eq_splitV (hWrc : ∀ q d, Wrc (ix2 q d) = joined (fun k => W3T (ix2 k d)) (fun j => W1 (ix2 j d)) q)
    (f : Fin 64 → EReal) (b : Fin 128 → EReal) (hb : ∀ j, IsReal (b j)) (hW1 : ∀ j d, IsReal (W1 (ix2 j d))) (d : Fin 2048) :
    fusedV Wrc f b d = splitV W3T W1 f b d := by
  unfold fusedV splitV
  rw [sum_192]
  have h1 : ∀ k : Fin 64, joined f (fun j => 0 - b j) ⟨k.val, by have := k.isLt; omega⟩ * Wrc (ix2 ⟨k.val, by have := k.isLt; omega⟩ d)
      = f k * W3T (ix2 k d) := fun k => by
    rw [hWrc]; unfold joined; rw [dif_pos k.isLt, dif_pos k.isLt]
  have h2 : ∀ j : Fin 128, joined f (fun j => 0 - b j) ⟨64 + j.val, by have := j.isLt; omega⟩ * Wrc (ix2 ⟨64 + j.val, by have := j.isLt; omega⟩ d)
      = (0 - b j) * W1 (ix2 j d) := fun j => by
    have hn : ¬ (64 + j.val < 64) := by omega
    have e : (⟨64 + j.val - 64, by have := j.isLt; omega⟩ : Fin 128) = j := Fin.ext (by simp)
    rw [hWrc]; unfold joined; rw [dif_neg hn, dif_neg hn]
    simp only [e]
  rw [Finset.sum_congr rfl fun k _ => h1 k, Finset.sum_congr rfl fun j _ => h2 j]
  choose rb hrb using hb
  choose rw hrw using fun j => hW1 j d
  have h3 : ∑ j : Fin 128, (0 - b j) * W1 (ix2 j d) = -(∑ j : Fin 128, b j * W1 (ix2 j d)) := by
    have e1 : ∀ j : Fin 128, (0 - b j) * W1 (ix2 j d) = ((-(rb j * rw j) : ℝ) : EReal) := fun j => by
      rw [hrb j, hrw j, zero_sub, ← EReal.coe_neg, ← EReal.coe_mul]; congr 1; ring
    have e2 : ∀ j : Fin 128, b j * W1 (ix2 j d) = ((rb j * rw j : ℝ) : EReal) := fun j => by
      rw [hrb j, hrw j, ← EReal.coe_mul]
    rw [Finset.sum_congr rfl fun j _ => e1 j, Finset.sum_congr rfl fun j _ => e2 j, ← coe_sum, ← coe_sum,
      Finset.sum_neg_distrib, EReal.coe_neg]
  rw [h3, sub_eq_add_neg]

/-- So the two rows agree. -/
theorem kernelRow_eq_refRow (hWrc : ∀ q d, Wrc (ix2 q d) = joined (fun k => W3T (ix2 k d)) (fun j => W1 (ix2 j d)) q)
    (hc3 : ∀ k, IsReal (c3 (ix1 k))) (hA3 : ∀ k j, IsReal (A3 (ix2 k j))) (hW1 : ∀ j d, IsReal (W1 (ix2 j d)))
    (x : Fin 2048 → EReal) (o : Fin 512) :
    kernelRow A1 b1 A2 b2 A3 r1 c3 Wrc Ap bp x o = refRow A1 b1 A2 b2 A3 r1 c3 W3T W1 Ap bp x o := by
  unfold kernelRow refRow
  refine congrArg (fun v => proj Ap bp v o) (funext fun d => ?_)
  exact fusedV_eq_splitV W3T W1 Wrc hWrc _ _
    (fun j => bwd_real A3 c3 hc3 hA3 _ _ (fun j => gate_real _) (fun k => gate_real _) j) hW1 d

end Stages

end Cert.RowSpec

end
-- ==== Proof.KernelRow.lean ====
/-
  The kernel body's arithmetic, read one entry at a time.

  The body works on a tile of 1024 rows. Each of its values at `(r, ·)` depends on the tile's row `r` alone:
  the first layer before its gate (`pay8_apply`), the two layers' gates (`pay9_apply`, `pay10_apply`), and the
  stored result (`pay1_apply`), which is `RowSpec.kernelRow` of that row. Every matrix product in the body
  contracts the left operand's columns with the right operand's rows into a zero accumulator, so each is a
  plain sum of products; a change of float format is the identity on the extended reals; a bias is a row
  repeated down the tile.
-/
import proofs.«105705_j89988154786346_2_alg».proof.Proof.Gen.KernelIdeal.Skeleton
import proofs.«105705_j89988154786346_2_alg».proof.Proof.LibPlainDot
import proofs.«105705_j89988154786346_2_alg».proof.Proof.LibMatrixLayout
import proofs.«105705_j89988154786346_2_alg».proof.Proof.RowSpec

noncomputable section

namespace Cert.KernelIdeal.Row

open Cert.KernelIdeal Cert.KernelIdeal.Gen Idealize.ShloMosaic Idealize.ShloMosaic.ValueIdx Cert.RowSpec
open Idealize.ShloMosaic.MatrixLayout

/-! ## The body's five matrix products at an entry -/

theorem mm_x_A1 (l : FVec Ideal S1024x2048 .bf16) (w : FVec Ideal S2048x128 .bf16) (r : Fin 1024) (j : Fin 128) :
    matmul dot_S1024x2048_S2048x128_S1024x128_1_0_0_1_n_n none l w (constant (F := Ideal) S1024x128 .f32 0x00000000#32) (ix2 r j)
      = ∑ k : Fin 2048, l (ix2 r k) * w (ix2 k j) :=
  PlainDot.matmul_zero_apply none l w r j

theorem mm_A2 (l : FVec Ideal S1024x128 .bf16) (w : FVec Ideal S128x64 .bf16) (r : Fin 1024) (k : Fin 64) :
    matmul dot_S1024x128_S128x64_S1024x64_1_0_0_1_n_n none l w (constant (F := Ideal) S1024x64 .f32 0x00000000#32) (ix2 r k)
      = ∑ j : Fin 128, l (ix2 r j) * w (ix2 j k) :=
  PlainDot.matmul_zero_apply none l w r k

theorem mm_A3 (l : FVec Ideal S1024x64 .bf16) (w : FVec Ideal S64x128 .bf16) (r : Fin 1024) (j : Fin 128) :
    matmul dot_S1024x64_S64x128_S1024x128_1_0_0_1_n_n none l w (constant (F := Ideal) S1024x128 .f32 0x00000000#32) (ix2 r j)
      = ∑ k : Fin 64, l (ix2 r k) * w (ix2 k j) :=
  PlainDot.matmul_zero_apply none l w r j

theorem mm_Wrc (l : FVec Ideal S1024x192 .bf16) (w : FVec Ideal S192x2048 .bf16) (r : Fin 1024) (d : Fin 2048) :
    matmul dot_S1024x192_S192x2048_S1024x2048_1_0_0_1_n_n none l w (constant (F := Ideal) S1024x2048 .f32 0x00000000#32) (ix2 r d)
      = ∑ q : Fin 192, l (ix2 r q) * w (ix2 q d) :=
  PlainDot.matmul_zero_apply none l w r d

theorem mm_Ap (l : FVec Ideal S1024x2048 .bf16) (w : FVec Ideal S2048x512 .bf16) (r : Fin 1024) (o : Fin 512) :
    matmul dot_S1024x2048_S2048x512_S1024x512_1_0_0_1_n_n none l w (constant (F := Ideal) S1024x512 .f32 0x00000000#32) (ix2 r o)
      = ∑ d : Fin 2048, l (ix2 r d) * w (ix2 d o) :=
  PlainDot.matmul_zero_apply none l w r o

/-! ## The payloads -/

/-- The first layer before its gate, at `(r, j)`. -/
theorem pay8_apply (x0 : Vec Ideal S1024x2048 .f32) (x1 : Vec Ideal S2048x128 .bf16) (x2 : Vec Ideal S128 .f32)
    (r : Fin 1024) (j : Fin 128) :
    k0_pay8 x0 x1 x2 (ix2 r j) = pre1 x1 x2 (fun k => x0 (ix2 r k)) j := by
  unfold k0_pay8 pre1
  rw [shapeCast_self, shapeCast_self]
  refine congrArg₂ (· + ·) ?_ (row_broadcast_apply x2 _ _ r j)
  exact mm_x_A1 _ x1 r j

/-- The first layer's gate, at `(r, j)`. -/
theorem pay9_apply (x0 : Vec Ideal S1024x2048 .f32) (x1 : Vec Ideal S2048x128 .bf16) (x2 : Vec Ideal S128 .f32)
    (r : Fin 1024) (j : Fin 128) :
    k0_pay9 x0 x1 x2 (ix2 r j) = gates1 x1 x2 (fun k => x0 (ix2 r k)) j := by
  unfold gates1
  rw [← pay8_apply]
  exact sitofp_extui_cmpf _

/-- The second layer's gate, at `(r, k)`. -/
theorem pay10_apply (x0 : Vec Ideal S1024x2048 .f32) (x1 : Vec Ideal S2048x128 .bf16) (x2 : Vec Ideal S128 .f32)
    (x3 : Vec Ideal S128x64 .bf16) (x4 : Vec Ideal S64 .f32) (r : Fin 1024) (k : Fin 64) :
    k0_pay10 x0 x1 x2 x3 x4 (ix2 r k) = gates2 x1 x2 x3 x4 (fun k => x0 (ix2 r k)) k := by
  unfold k0_pay10 gates2
  refine (sitofp_extui_cmpf _).trans (congrArg gate ?_)
  unfold pre2
  refine congrArg₂ (· + ·) ?_ (row_broadcast_apply x4 _ _ r k)
  refine (mm_A2 _ _ r k).trans (Finset.sum_congr rfl fun j _ => ?_)
  show (k0_pay8 x0 x1 x2 (ix2 r j) * k0_pay9 x0 x1 x2 (ix2 r j)) * k0_pay2 x3 (ix2 j k) = _
  rw [pay8_apply, pay9_apply]
  unfold k0_pay2
  rw [shapeCast_self]

/-- The stored result at `(r, o)`, from the loaded weights and the two gates' rows. -/
theorem pay1_apply (v7 : FVec Ideal S128x64 .bf16) (v10 : FVec Ideal S64x128 .bf16) (v12 : FVec Ideal S128 .f32)
    (v14 : FVec Ideal S64 .f32) (v16 : FVec Ideal S192x2048 .bf16) (v18 : FVec Ideal S2048x512 .bf16) (v19 : Vec Ideal S512 .f32)
    (v27 : FVec Ideal S1024x128 .f32) (v37 : FVec Ideal S1024x64 .f32) (r : Fin 1024) (o : Fin 512) :
    k0_pay1 v7 v10 v12 v14 v16 v18 v19 v27 v37 (ix2 r o)
      = proj v18 v19 (fusedV v16 (fwd v7 v12 (fun j => v27 (ix2 r j)) (fun k => v37 (ix2 r k)))
          (bwd v10 v14 (fun j => v27 (ix2 r j)) (fun k => v37 (ix2 r k)))) o := by
  unfold k0_pay1 proj
  refine congrArg₂ (· + ·) ?_ (row_broadcast_apply v19 _ _ r o)
  refine (mm_Ap _ v18 r o).trans (Finset.sum_congr rfl fun d _ => congrArg (· * v18 (ix2 d o)) ?_)
  unfold fusedV
  refine (mm_Wrc _ v16 r d).trans (Finset.sum_congr rfl fun q _ => congrArg (· * v16 (ix2 q d)) ?_)
  unfold joined
  by_cases hq : q.val < 64
  · rw [dif_pos hq]
    refine (beside_left _ _ concatenates_S1024x64_S1024x128_S1024x192_d1 r q hq).trans ?_
    unfold fwd
    refine congrArg (· * v37 (ix2 r ⟨q.val, hq⟩)) ?_
    refine (mm_A2 _ v7 r ⟨q.val, hq⟩).trans (Finset.sum_congr rfl fun j _ => congrArg (· * v7 (ix2 j ⟨q.val, hq⟩)) ?_)
    exact congrArg (v27 (ix2 r j) * ·) (row_broadcast_apply v12 _ _ r j)
  · rw [dif_neg hq]
    have hb : q.val - 64 < 128 := by have := q.isLt; omega
    refine (beside_right _ _ concatenates_S1024x64_S1024x128_S1024x192_d1 r q (by omega) hb).trans ?_
    unfold bwd
    refine (subf_apply _ _ _).trans (congrArg₂ (· - ·) Ideal.ofBits_zero_f32 ?_)
    refine congrArg (· * v27 (ix2 r ⟨q.val - 64, hb⟩)) ?_
    refine (mm_A3 _ v10 r ⟨q.val - 64, hb⟩).trans (Finset.sum_congr rfl fun k _ => congrArg (· * v10 (ix2 k ⟨q.val - 64, hb⟩)) ?_)
    exact congrArg (v37 (ix2 r k) * ·) (row_broadcast_apply v14 _ _ r k)

/-- The tile's stored entry `(r, o)`, from the eleven loaded blocks: the kernel's row function of the tile's row `r`.
    (A shape cast between equal shapes is the identity.) -/
theorem tile_entry (x0 : Vec Ideal S1024x2048 .f32) (x1 : Vec Ideal S2048x128 .bf16) (x2 : Vec Ideal S128 .f32)
    (x3 : Vec Ideal S128x64 .bf16) (x4 : Vec Ideal S64 .f32) (x5 : Vec Ideal S64x128 .bf16) (x6 : Vec Ideal S128 .f32)
    (x7 : Vec Ideal S64 .f32) (x8 : Vec Ideal S192x2048 .bf16) (x9 : Vec Ideal S2048x512 .bf16) (x10 : Vec Ideal S512 .f32)
    (r : Fin 1024) (o : Fin 512) :
    k0_pay1 (k0_pay2 x3) (k0_pay3 x5) (k0_pay4 x6) (k0_pay5 x7) (k0_pay6 x8) (k0_pay7 x9) x10 (k0_pay9 x0 x1 x2)
        (k0_pay10 x0 x1 x2 x3 x4) (ix2 r o)
      = kernelRow x1 x2 x3 x4 x5 x6 x7 x8 x9 x10 (fun k => x0 (ix2 r k)) o := by
  rw [pay1_apply]
  have e2 : k0_pay2 x3 = x3 := by unfold k0_pay2; exact shapeCast_self _ _
  have e3 : k0_pay3 x5 = x5 := by unfold k0_pay3; exact shapeCast_self _ _
  have e4 : k0_pay4 x6 = x6 := by unfold k0_pay4; exact shapeCast_self _ _
  have e5 : k0_pay5 x7 = x7 := by unfold k0_pay5; exact shapeCast_self _ _
  have e6 : k0_pay6 x8 = x8 := by unfold k0_pay6; exact shapeCast_self _ _
  have e7 : k0_pay7 x9 = x9 := by unfold k0_pay7; exact shapeCast_self _ _
  rw [e2, e3, e4, e5, e6, e7]
  simp only [pay9_apply, pay10_apply]
  rfl

end Cert.KernelIdeal.Row

end
-- ==== Proof.KernelValue.lean ====
/-
  From the kernel's tiles to its whole result array.

  The grid has eight points; point `t` reads rows `1024 t … 1024 t + 1023` of the flattened input, the ten
  weight and bias arrays whole, and writes rows `1024 t … 1024 t + 1023` of the result. A stored entry is the
  kernel's row function of its own input row (`Row.tile_entry`), so what point `t` writes back is tile `t` of ONE
  function `G` of the arrays the region finds (`flushed_eq`); the eight tiles cover the result (row `i` lies in
  tile `i / 1024`), so the result array after the run is `G` (`final`, `run`).
-/
import proofs.«105705_j89988154786346_2_alg».proof.Proof.Gen.KernelIdeal.Value
import proofs.«105705_j89988154786346_2_alg».proof.Proof.KernelRow
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

/-- The result array as one function of the arrays the region finds: entry `(i, o)` is the kernel's row
    function of row `i` of the flattened input. -/
def G (XF : S8192x2048.Idx → EReal) (A1 : S2048x128.Idx → EReal) (b1 : S128.Idx → EReal) (A2 : S128x64.Idx → EReal)
    (b2 : S64.Idx → EReal) (A3 : S64x128.Idx → EReal) (r1 : S128.Idx → EReal) (c3 : S64.Idx → EReal)
    (Wrc : S192x2048.Idx → EReal) (Ap : S2048x512.Idx → EReal) (bp : S512.Idx → EReal) : S8192x512.Idx → EReal :=
  fun i => kernelRow A1 b1 A2 b2 A3 r1 c3 Wrc Ap bp (fun k => XF (ix2 (show Fin 8192 from i 0) k)) (show Fin 512 from i 1)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the input tile and the result tile sit at block row `t`; every other
    window's block is its whole array. -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 :=
  (by decide +kernel : ∀ t : Fin grid0.N, _)

/-! ## The blocks, read off the arrays the region finds -/

/-- The input tile at point `t`: rows `1024 t + r` of the flattened input. -/
theorem tile_x (c : Dev nD) (t : Fin cfg0.N) (r : Fin 1024) (k : Fin 2048) (R : Fin 8192) (hR : R.val = 1024 * t.val + r.val) :
    (iblk m c 0 t : Vec Ideal S1024x2048 .f32) (ix2 r k) = (V m c main_v0 : S8192x2048.Idx → EReal) (ix2 R k) := by
  obtain ⟨e0, e1, -⟩ := idx_facts t
  unfold iblk
  rw [View.read_apply]
  show (V m c main_v0 : S8192x2048.Idx → EReal) _ = _
  refine congrArg (V m c main_v0 : S8192x2048.Idx → EReal) (funext fun a => Fin.ext ?_)
  match a with
  | ⟨0, _⟩ => show win0_0.index t (0 : Fin 2) * 1024 + 1 * r.val = R.val; omega
  | ⟨1, _⟩ => show win0_0.index t (1 : Fin 2) * 2048 + 1 * k.val = k.val; omega

/-- Window 1's block at every point is its whole array. -/
theorem blk1 (c : Dev nD) (t : Fin cfg0.N) : (iblk m c 1 t : Vec Ideal S2048x128 .bf16) = (V m c main_v2 : S2048x128.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v2 : S2048x128.Idx → EReal) _ = _
  refine congrArg (V m c main_v2 : S2048x128.Idx → EReal) (funext fun a => Fin.ext ?_)
  match a with
  | ⟨0, _⟩ => show win0_1.index t (0 : Fin 2) * 2048 + 1 * (x 0).val = (x 0).val; omega
  | ⟨1, _⟩ => show win0_1.index t (1 : Fin 2) * 128 + 1 * (x 1).val = (x 1).val; omega

/-- Window 2's block at every point is its whole array. -/
theorem blk2 (c : Dev nD) (t : Fin cfg0.N) : (iblk m c 2 t : Vec Ideal S128 .f32) = (V m c main_arg2 : S128.Idx → EReal) := by
  obtain ⟨h00, h01, hB0, hB1, h10, h11, h20, h30, h31, h40, h50, h51, h60, h70, h80, h81, h90, h91, hA0⟩ := idx_facts t
  funext x
  unfold iblk
  rw [View.read_apply]
  show (V m c main_arg2 : S128.Idx → EReal) _ = _
  refine congrArg (V m c main_arg2 : S128.Idx → EReal) (funext fun a => Fin.ext ?_)
  match a with
  | ⟨0, _⟩ => show win0_2.index t (0 : Fin 1) * 128 + 1 * (x 0).val = (x 0).val; omega

/-- Window 3's block at every point is its whole array. -/
theorem blk3 (c : Dev nD) (t : Fin cfg0.N) : (iblk m c 3 t : Vec Ideal S128x64 .bf16) = (V m c main_v4 : S128x64.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v4 : S128x64.Idx → EReal) _ = _
  refine congrArg (V m c main_v4 : S128x64.Idx → EReal) (funext fun a => Fin.ext ?_)
  match a with
  | ⟨0, _⟩ => show win0_3.index t (0 : Fin 2) * 128 + 1 * (x 0).val = (x 0).val; omega
  | ⟨1, _⟩ => show win0_3.index t (1 : Fin 2) * 64 + 1 * (x 1).val = (x 1).val; omega

/-- Window 4's block at every point is its whole array. -/
theorem blk4 (c : Dev nD) (t : Fin cfg0.N) : (iblk m c 4 t : Vec Ideal S64 .f32) = (V m c main_arg4 : S64.Idx → EReal) := by
  obtain ⟨h00, h01, hB0, hB1, h10, h11, h20, h30, h31, h40, h50, h51, h60, h70, h80, h81, h90, h91, hA0⟩ := idx_facts t
  funext x
  unfold iblk
  rw [View.read_apply]
  show (V m c main_arg4 : S64.Idx → EReal) _ = _
  refine congrArg (V m c main_arg4 : S64.Idx → EReal) (funext fun a => Fin.ext ?_)
  match a with
  | ⟨0, _⟩ => show win0_4.index t (0 : Fin 1) * 64 + 1 * (x 0).val = (x 0).val; omega

/-- Window 5's block at every point is its whole array. -/
theorem blk5 (c : Dev nD) (t : Fin cfg0.N) : (iblk m c 5 t : Vec Ideal S64x128 .bf16) = (V m c main_v5 : S64x128.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v5 : S64x128.Idx → EReal) _ = _
  refine congrArg (V m c main_v5 : S64x128.Idx → EReal) (funext fun a => Fin.ext ?_)
  match a with
  | ⟨0, _⟩ => show win0_5.index t (0 : Fin 2) * 64 + 1 * (x 0).val = (x 0).val; omega
  | ⟨1, _⟩ => show win0_5.index t (1 : Fin 2) * 128 + 1 * (x 1).val = (x 1).val; omega

/-- Window 6's block at every point is its whole array. -/
theorem blk6 (c : Dev nD) (t : Fin cfg0.N) : (iblk m c 6 t : Vec Ideal S128 .f32) = (V m c main_v8 : S128.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v8 : S128.Idx → EReal) _ = _
  refine congrArg (V m c main_v8 : S128.Idx → EReal) (funext fun a => Fin.ext ?_)
  match a with
  | ⟨0, _⟩ => show win0_6.index t (0 : Fin 1) * 128 + 1 * (x 0).val = (x 0).val; omega

/-- Window 7's block at every point is its whole array. -/
theorem blk7 (c : Dev nD) (t : Fin cfg0.N) : (iblk m c 7 t : Vec Ideal S64 .f32) = (V m c main_v9 : S64.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v9 : S64.Idx → EReal) _ = _
  refine congrArg (V m c main_v9 : S64.Idx → EReal) (funext fun a => Fin.ext ?_)
  match a with
  | ⟨0, _⟩ => show win0_7.index t (0 : Fin 1) * 64 + 1 * (x 0).val = (x 0).val; omega

/-- Window 8's block at every point is its whole array. -/
theorem blk8 (c : Dev nD) (t : Fin cfg0.N) : (iblk m c 8 t : Vec Ideal S192x2048 .bf16) = (V m c main_v12 : S192x2048.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v12 : S192x2048.Idx → EReal) _ = _
  refine congrArg (V m c main_v12 : S192x2048.Idx → EReal) (funext fun a => Fin.ext ?_)
  match a with
  | ⟨0, _⟩ => show win0_8.index t (0 : Fin 2) * 192 + 1 * (x 0).val = (x 0).val; omega
  | ⟨1, _⟩ => show win0_8.index t (1 : Fin 2) * 2048 + 1 * (x 1).val = (x 1).val; omega

/-- Window 9's block at every point is its whole array. -/
theorem blk9 (c : Dev nD) (t : Fin cfg0.N) : (iblk m c 9 t : Vec Ideal S2048x512 .bf16) = (V m c main_v7 : S2048x512.Idx → EReal) := by
  obtain ⟨h00, h01, hB0, hB1, h10, h11, h20, h30, h31, h40, h50, h51, h60, h70, h80, h81, h90, h91, hA0⟩ := idx_facts t
  funext x
  unfold iblk
  rw [View.read_apply]
  show (V m c main_v7 : S2048x512.Idx → EReal) _ = _
  refine congrArg (V m c main_v7 : S2048x512.Idx → EReal) (funext fun a => Fin.ext ?_)
  match a with
  | ⟨0, _⟩ => show win0_9.index t (0 : Fin 2) * 2048 + 1 * (x 0).val = (x 0).val; omega
  | ⟨1, _⟩ => show win0_9.index t (1 : Fin 2) * 512 + 1 * (x 1).val = (x 1).val; omega

/-- Window 10's block at every point is its whole array. -/
theorem blk10 (c : Dev nD) (t : Fin cfg0.N) : (iblk m c 10 t : Vec Ideal S512 .f32) = (V m c main_arg8 : S512.Idx → EReal) := by
  obtain ⟨h00, h01, hB0, hB1, h10, h11, h20, h30, h31, h40, h50, h51, h60, h70, h80, h81, h90, h91, hA0⟩ := idx_facts t
  funext x
  unfold iblk
  rw [View.read_apply]
  show (V m c main_arg8 : S512.Idx → EReal) _ = _
  refine congrArg (V m c main_arg8 : S512.Idx → EReal) (funext fun a => Fin.ext ?_)
  match a with
  | ⟨0, _⟩ => show win0_10.index t (0 : Fin 1) * 512 + 1 * (x 0).val = (x 0).val; omega

/-! ## What a point writes back, the cover, and the array after the run -/

/-- The result array as the function `G` of the arrays the region finds. -/
abbrev GV (c : Dev nD) : S8192x512.Idx → EReal :=
  G (V m c main_v0) (V m c main_v2) (V m c main_arg2) (V m c main_v4) (V m c main_arg4) (V m c main_v5) (V m c main_v8) (V m c main_v9) (V m c main_v12) (V m c main_v7) (V m c main_arg8)

/-- What point `t` writes back is tile `t` of `G`. -/
theorem flushed_eq (c : Dev nD) (t : Fin cfg0.N) :
    (dats m 0 c).flushed 11 t = ((cfg0.win 11).blk t).view.read (Elt Ideal) (GV m c) := by
  rw [Value.flushed11]
  unfold out0_11
  rw [View.canon_unit_zero hz2]
  simp only [View.ld_unit_zero (S := S1024x2048) hz2, View.ld_unit_zero (S := S2048x128) hz2, View.ld_unit_zero (S := S128) hz1,
    View.ld_unit_zero (S := S128x64) hz2, View.ld_unit_zero (S := S64) hz1, View.ld_unit_zero (S := S64x128) hz2,
    View.ld_unit_zero (S := S192x2048) hz2, View.ld_unit_zero (S := S2048x512) hz2, View.ld_unit_zero (S := S512) hz1]
  obtain ⟨h00, h01, hB0, hB1, h10, h11, h20, h30, h31, h40, h50, h51, h60, h70, h80, h81, h90, h91, hA0⟩ := idx_facts t
  funext y
  obtain ⟨r, o, rfl⟩ : ∃ (r : Fin 1024) (o : Fin 512), y = ix2 r o := ⟨y 0, y 1, eq_ix2 y⟩
  rw [View.read_apply]
  have hN : cfg0.N = 8 := N_0
  have hR : 1024 * t.val + r.val < 8192 := by have := t.isLt; have := r.isLt; omega
  have hemb : ((cfg0.win 11).blk t).view.emb (ix2 r o) = (ix2 (⟨1024 * t.val + r.val, hR⟩ : Fin 8192) o : S8192x512.Idx) :=
    funext fun a => Fin.ext (by
      match a with
      | ⟨0, _⟩ => show win0_11.index t (0 : Fin 2) * 1024 + 1 * r.val = 1024 * t.val + r.val; omega
      | ⟨1, _⟩ => show win0_11.index t (1 : Fin 2) * 512 + 1 * o.val = o.val; omega)
  rw [hemb, blk1 m c t, blk2 m c t, blk3 m c t, blk4 m c t, blk5 m c t, blk6 m c t, blk7 m c t, blk8 m c t, blk9 m c t, blk10 m c t]
  exact (Row.tile_entry (iblk m c 0 t) (V m c main_v2) (V m c main_arg2) (V m c main_v4) (V m c main_arg4) (V m c main_v5)
      (V m c main_v8) (V m c main_v9) (V m c main_v12) (V m c main_v7) (V m c main_arg8) r o).trans
    (congrArg (fun x => kernelRow (V m c main_v2) (V m c main_arg2) (V m c main_v4) (V m c main_arg4) (V m c main_v5)
        (V m c main_v8) (V m c main_v9) (V m c main_v12) (V m c main_v7) (V m c main_arg8) x o)
      (funext fun k => tile_x m c t r k ⟨1024 * t.val + r.val, hR⟩ rfl))

/-- An index of the result lies in point `t`'s tile iff each coordinate lies in the tile's range on its axis. -/
theorem mem_blk (t : Fin cfg0.N) (i : S8192x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v13).slice (win0_11.rect t)).set ↔ _
  rw [View.set_slice_whole, Rect.mem_set_unit]
  exact Iff.rfl

/-- The eight tiles cover the result: row `i` lies in tile `i / 1024`. -/
theorem cover (i : S8192x512.Idx) : ∃ t : Fin cfg0.N, (cfg0.win 11).flush t = true ∧ i ∈ ((cfg0.win 11).blk t).view.set := by
  have hi0 : (i 0).val < 8192 := (i 0).isLt
  have hi1 : (i 1).val < 512 := (i 1).isLt
  have hN : cfg0.N = 8 := N_0
  have ht : (i 0).val / 1024 < cfg0.N := by rw [hN]; omega
  obtain ⟨h00, h01, hB0, hB1, h10, h11, h20, h30, h31, h40, h50, h51, h60, h70, h80, h81, h90, h91, hA0⟩ := idx_facts ⟨(i 0).val / 1024, ht⟩
  refine ⟨⟨(i 0).val / 1024, ht⟩, flush0_11 _, ?_⟩
  rw [mem_blk]
  intro a
  match a with
  | ⟨0, _⟩ =>
    show win0_11.index ⟨(i 0).val / 1024, ht⟩ (0 : Fin 2) * 1024 ≤ (i 0).val ∧ (i 0).val < win0_11.index ⟨(i 0).val / 1024, ht⟩ (0 : Fin 2) * 1024 + 1024
    rw [hB0]; show (i 0).val / 1024 * 1024 ≤ (i 0).val ∧ (i 0).val < (i 0).val / 1024 * 1024 + 1024; omega
  | ⟨1, _⟩ =>
    show win0_11.index ⟨(i 0).val / 1024, ht⟩ (1 : Fin 2) * 512 ≤ (i 1).val ∧ (i 1).val < win0_11.index ⟨(i 0).val / 1024, ht⟩ (1 : Fin 2) * 512 + 512
    rw [hB1]; omega

/-- The result array after the run is `G`. -/
theorem final (c : Dev nD) : (dats m 0 c).arrAt 11 cfg0.N = GV m c :=
  (dats m 0 c).arrAt_eq_of_cover 11 (GV m c) (fun t _ => flushed_eq m c t) cover

/-- The kernel's run: every weakly fair execution terminates with the result array at `G` of the arrays the region
    finds, the arguments unchanged. -/
theorem run : θ_run defs (onTc (τ := τ) (main (F := Ideal))) ⟨m, fun _ => 0, ρ⟩ fun r => ∀ c : Dev nD,
      r.2.mem ((c : Thread nD τ).loc main_v13) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefRow.lean ====
/-
  The reference's operations, read one entry at a time.

  Every stage of the reference at `(i, ·)` depends on row `i` of the flattened input alone, and is the stage of
  `RowSpec` of that row: the first layer (`v5_apply`) and its gate (`v8_apply`), the second layer (`v14_apply`)
  and its gate (`v17_apply`), the pushed-forward row sums (`v24_apply`), the pulled-back column sums
  (`v32_apply`), their difference of products (`v34_apply`) and the projection (`v39_apply`): the result is
  `RowSpec.refRow`. The host's `dot_general` is the plain sum of products; a bias is a vector repeated down the rows.
-/
import proofs.«105705_j89988154786346_2_alg».proof.Proof.Gen.ReferenceIdeal.Read
import proofs.«105705_j89988154786346_2_alg».proof.Proof.LibPlainDot
import proofs.«105705_j89988154786346_2_alg».proof.Proof.RowSpec

noncomputable section

namespace Cert.ReferenceIdeal.Row

open Cert.ReferenceIdeal Cert.ReferenceIdeal.Gen Cert.ReferenceIdeal.Read Idealize.ShloMosaic Idealize.ShloMosaic.ValueIdx Cert.RowSpec

variable (x0 : (⟨S8192x128x16, .f32⟩ : BufTy).Contents (Elt Ideal)) (x1 : (⟨S128x2048, .f32⟩ : BufTy).Contents (Elt Ideal))
  (x2 : (⟨S128, .f32⟩ : BufTy).Contents (Elt Ideal)) (x3 : (⟨S64x128, .f32⟩ : BufTy).Contents (Elt Ideal))
  (x4 : (⟨S64, .f32⟩ : BufTy).Contents (Elt Ideal)) (x5 : (⟨S2048x64, .f32⟩ : BufTy).Contents (Elt Ideal))
  (x7 : (⟨S512x2048, .f32⟩ : BufTy).Contents (Elt Ideal)) (x8 : (⟨S512, .f32⟩ : BufTy).Contents (Elt Ideal))

/-! ## The vectors repeated down the rows -/

theorem b1_apply (i : Fin 8192) (j : Fin 128) : val_main_v4 (F := Ideal) x2 (ix2 i j) = x2 (ix1 j) :=
  (val_main_v4_apply x2 _).trans ((val_main_v3_apply x2 _).trans
    (congrArg x2 (funext fun a => by match a with | ⟨0, _⟩ => rfl)))

theorem b2_apply (i : Fin 8192) (k : Fin 64) : val_main_v13 (F := Ideal) x4 (ix2 i k) = x4 (ix1 k) :=
  (val_main_v13_apply x4 _).trans ((val_main_v12_apply x4 _).trans
    (congrArg x4 (funext fun a => by match a with | ⟨0, _⟩ => rfl)))

theorem r1_apply (i : Fin 8192) (j : Fin 128) : val_main_v20 (F := Ideal) x1 (ix2 i j) = val_main_v18 (F := Ideal) x1 (ix1 j) :=
  (val_main_v20_apply x1 _).trans ((val_main_v19_apply x1 _).trans
    (congrArg (val_main_v18 (F := Ideal) x1) (funext fun a => by match a with | ⟨0, _⟩ => rfl)))

theorem c3_apply (i : Fin 8192) (k : Fin 64) : val_main_v29 (F := Ideal) x5 (ix2 i k) = val_main_v27 (F := Ideal) x5 (ix1 k) :=
  (val_main_v29_apply x5 _).trans ((val_main_v28_apply x5 _).trans
    (congrArg (val_main_v27 (F := Ideal) x5) (funext fun a => by match a with | ⟨0, _⟩ => rfl)))

theorem bp_apply (i : Fin 8192) (o : Fin 512) : val_main_v38 (F := Ideal) x8 (ix2 i o) = x8 (ix1 o) :=
  (val_main_v38_apply x8 _).trans ((val_main_v37_apply x8 _).trans
    (congrArg x8 (funext fun a => by match a with | ⟨0, _⟩ => rfl)))

/-! ## The stages -/

/-- Row `i` of the flattened input. -/
abbrev xrow (i : Fin 8192) : Fin 2048 → EReal := fun k => val_main_v0 (F := Ideal) x0 (ix2 i k)

/-- The first layer before its gate. -/
theorem v5_apply (i : Fin 8192) (j : Fin 128) :
    val_main_v5 (F := Ideal) x0 x1 x2 (ix2 i j) = pre1 (val_main_v1 (F := Ideal) x1) x2 (xrow x0 i) j := by
  unfold val_main_v5 pre1
  refine congrArg₂ (· + ·) ?_ (b1_apply x2 i j)
  unfold val_main_v2
  exact PlainDot.dotGeneral_apply none _ _ i j

/-- The first layer's gate. -/
theorem v8_apply (i : Fin 8192) (j : Fin 128) :
    val_main_v8 (F := Ideal) x0 x1 x2 (ix2 i j) = gates1 (val_main_v1 (F := Ideal) x1) x2 (xrow x0 i) j := by
  unfold gates1
  rw [← v5_apply]
  have e6 : val_main_v6 (F := Ideal) (ix2 i j) = Ideal.ofBits .f32 0x00000000#32 := (val_main_v6_apply _).trans rfl
  show FloatOps.uitofp (F := Ideal) .f32 (FloatOps.cmpf (F := Ideal) (φ := .f32) .ogt (val_main_v5 (F := Ideal) x0 x1 x2 (ix2 i j)) (val_main_v6 (F := Ideal) (ix2 i j))) = _
  rw [e6]
  exact uitofp_cmpf _

/-- The second layer before its gate. -/
theorem v14_apply (i : Fin 8192) (k : Fin 64) :
    val_main_v14 (F := Ideal) x0 x1 x2 x3 x4 (ix2 i k)
      = pre2 (val_main_v10 (F := Ideal) x3) x4 (pre1 (val_main_v1 (F := Ideal) x1) x2 (xrow x0 i)) (gates1 (val_main_v1 (F := Ideal) x1) x2 (xrow x0 i)) k := by
  unfold val_main_v14 pre2
  refine congrArg₂ (· + ·) ?_ (b2_apply x4 i k)
  unfold val_main_v11
  refine (PlainDot.dotGeneral_apply none _ _ i k).trans (Finset.sum_congr rfl fun j _ => congrArg (· * val_main_v10 (F := Ideal) x3 (ix2 j k)) ?_)
  show val_main_v5 (F := Ideal) x0 x1 x2 (ix2 i j) * val_main_v8 (F := Ideal) x0 x1 x2 (ix2 i j) = _
  rw [v5_apply, v8_apply]

/-- The second layer's gate. -/
theorem v17_apply (i : Fin 8192) (k : Fin 64) :
    val_main_v17 (F := Ideal) x0 x1 x2 x3 x4 (ix2 i k)
      = gates2 (val_main_v1 (F := Ideal) x1) x2 (val_main_v10 (F := Ideal) x3) x4 (xrow x0 i) k := by
  unfold gates2
  rw [← v14_apply]
  have e15 : val_main_v15 (F := Ideal) (ix2 i k) = Ideal.ofBits .f32 0x00000000#32 := (val_main_v15_apply _).trans rfl
  show FloatOps.uitofp (F := Ideal) .f32 (FloatOps.cmpf (F := Ideal) (φ := .f32) .ogt (val_main_v14 (F := Ideal) x0 x1 x2 x3 x4 (ix2 i k)) (val_main_v15 (F := Ideal) (ix2 i k))) = _
  rw [e15]
  exact uitofp_cmpf _

/-- The Jacobian's row sums pushed forward. -/
theorem v24_apply (i : Fin 8192) (k : Fin 64) :
    val_main_v24 (F := Ideal) x0 x1 x2 x3 x4 (ix2 i k)
      = fwd (val_main_v10 (F := Ideal) x3) (val_main_v18 (F := Ideal) x1) (gates1 (val_main_v1 (F := Ideal) x1) x2 (xrow x0 i))
          (gates2 (val_main_v1 (F := Ideal) x1) x2 (val_main_v10 (F := Ideal) x3) x4 (xrow x0 i)) k := by
  unfold val_main_v24 fwd
  show val_main_v23 (F := Ideal) x0 x1 x2 x3 (ix2 i k) * val_main_v17 (F := Ideal) x0 x1 x2 x3 x4 (ix2 i k) = _
  rw [v17_apply]
  refine congrArg (· * _) ?_
  unfold val_main_v23
  refine (PlainDot.dotGeneral_apply none _ _ i k).trans (Finset.sum_congr rfl fun j _ => congrArg (· * val_main_v10 (F := Ideal) x3 (ix2 j k)) ?_)
  show val_main_v8 (F := Ideal) x0 x1 x2 (ix2 i j) * val_main_v20 (F := Ideal) x1 (ix2 i j) = _
  rw [v8_apply, r1_apply]

/-- Its column sums pulled back. -/
theorem v32_apply (i : Fin 8192) (j : Fin 128) :
    val_main_v32 (F := Ideal) x0 x1 x2 x3 x4 x5 (ix2 i j)
      = bwd x3 (val_main_v27 (F := Ideal) x5) (gates1 (val_main_v1 (F := Ideal) x1) x2 (xrow x0 i))
          (gates2 (val_main_v1 (F := Ideal) x1) x2 (val_main_v10 (F := Ideal) x3) x4 (xrow x0 i)) j := by
  unfold val_main_v32 bwd
  show val_main_v31 (F := Ideal) x0 x1 x2 x3 x4 x5 (ix2 i j) * val_main_v8 (F := Ideal) x0 x1 x2 (ix2 i j) = _
  rw [v8_apply]
  refine congrArg (· * _) ?_
  unfold val_main_v31
  refine (PlainDot.dotGeneral_apply none _ _ i j).trans (Finset.sum_congr rfl fun k _ => congrArg (· * x3 (ix2 k j)) ?_)
  show val_main_v17 (F := Ideal) x0 x1 x2 x3 x4 (ix2 i k) * val_main_v29 (F := Ideal) x5 (ix2 i k) = _
  rw [v17_apply, c3_apply]

/-- The difference of the two products. -/
theorem v34_apply (i : Fin 8192) (d : Fin 2048) :
    val_main_v34 (F := Ideal) x0 x1 x2 x3 x4 x5 (ix2 i d)
      = splitV (val_main_v25 (F := Ideal) x5) x1
          (fwd (val_main_v10 (F := Ideal) x3) (val_main_v18 (F := Ideal) x1) (gates1 (val_main_v1 (F := Ideal) x1) x2 (xrow x0 i))
            (gates2 (val_main_v1 (F := Ideal) x1) x2 (val_main_v10 (F := Ideal) x3) x4 (xrow x0 i)))
          (bwd x3 (val_main_v27 (F := Ideal) x5) (gates1 (val_main_v1 (F := Ideal) x1) x2 (xrow x0 i))
            (gates2 (val_main_v1 (F := Ideal) x1) x2 (val_main_v10 (F := Ideal) x3) x4 (xrow x0 i))) d := by
  unfold val_main_v34 splitV
  refine congrArg₂ (· - ·) ?_ ?_
  · unfold val_main_v26
    refine (PlainDot.dotGeneral_apply none _ _ i d).trans (Finset.sum_congr rfl fun k _ => congrArg (· * val_main_v25 (F := Ideal) x5 (ix2 k d)) ?_)
    exact v24_apply x0 x1 x2 x3 x4 i k
  · unfold val_main_v33
    refine (PlainDot.dotGeneral_apply none _ _ i d).trans (Finset.sum_congr rfl fun j _ => congrArg (· * x1 (ix2 j d)) ?_)
    exact v32_apply x0 x1 x2 x3 x4 x5 i j

/-- The reference's result at `(i, o)` is the reference's row function of row `i`. -/
theorem v39_apply (i : Fin 8192) (o : Fin 512) :
    val_main_v39 (F := Ideal) x0 x1 x2 x3 x4 x5 x7 x8 (ix2 i o)
      = refRow (val_main_v1 (F := Ideal) x1) x2 (val_main_v10 (F := Ideal) x3) x4 x3 (val_main_v18 (F := Ideal) x1) (val_main_v27 (F := Ideal) x5)
          (val_main_v25 (F := Ideal) x5) x1 (val_main_v35 (F := Ideal) x7) x8 (xrow x0 i) o := by
  unfold val_main_v39 refRow proj
  refine congrArg₂ (· + ·) ?_ (bp_apply x8 i o)
  unfold val_main_v36
  refine (PlainDot.dotGeneral_apply none _ _ i o).trans (Finset.sum_congr rfl fun d _ => congrArg (· * val_main_v35 (F := Ideal) x7 (ix2 d o)) ?_)
  exact v34_apply x0 x1 x2 x3 x4 x5 i d

end Cert.ReferenceIdeal.Row

end
-- ==== Proof.Bridge.lean ====
/-
  The kernel's result array is the reference's, under finite inputs.

  The arrays the kernel's region finds were written by host operations that the reference performs too: the
  flattened input, the transposed weights, the two sum vectors. So each is the reference's own stage of the same
  argument (`found_*`). The one array the reference does not form is the stack of `W3ᵀ` over `W1`, which read
  at `(q, d)` is `W3ᵀ` for `q < 64` and `W1` at row `q - 64` below (`stacked`). With `W1`, `W2` and `W3` real
  — so that the column sums of `W3` are real too — the kernel's fused product is the reference's difference of
  products (`RowSpec.kernelRow_eq_refRow`), and the two result arrays agree entry by entry (`result_eq`).
-/
import proofs.«105705_j89988154786346_2_alg».proof.Proof.KernelValue
import proofs.«105705_j89988154786346_2_alg».proof.Proof.RefRow
import Idealize.ShloMosaic.Lib.StableHlo.Run

set_option maxRecDepth 16384

noncomputable section

namespace Cert.Bridge

open Idealize.ShloMosaic Idealize.ShloMosaic.TcCoe Idealize.SL.Sem Idealize.ShloMosaic.ValueIdx Cert.RowSpec
open Idealize.ShloMosaic.MatrixLayout
open Cert.KernelIdeal Cert.KernelIdeal.Gen

variable (m : (ℓ : Loc nD τ sig) → Buf (Elt Ideal) ℓ)

/-! ## What the region finds -/

section Found
variable (c : Dev nD)

theorem found_v0 : (V m c main_v0 : S8192x2048.Idx → EReal)
    = Cert.ReferenceIdeal.Read.val_main_v0 (F := Ideal) (m ((c : Thread nD τ).loc main_arg0)) := by
  dsimp only [V, hostOps0]; after_results; rfl

theorem found_v2 : (V m c main_v2 : S2048x128.Idx → EReal)
    = Cert.ReferenceIdeal.Read.val_main_v1 (F := Ideal) (m ((c : Thread nD τ).loc main_arg1)) := by
  dsimp only [V, hostOps0]; after_results; rfl

theorem found_v4 : (V m c main_v4 : S128x64.Idx → EReal)
    = Cert.ReferenceIdeal.Read.val_main_v10 (F := Ideal) (m ((c : Thread nD τ).loc main_arg3)) := by
  dsimp only [V, hostOps0]; after_results; rfl

theorem found_v5 : (V m c main_v5 : S64x128.Idx → EReal) = m ((c : Thread nD τ).loc main_arg3) := by
  dsimp only [V, hostOps0]; after_results; rfl

theorem found_v8 : (V m c main_v8 : S128.Idx → EReal)
    = Cert.ReferenceIdeal.Read.val_main_v18 (F := Ideal) (m ((c : Thread nD τ).loc main_arg1)) := by
  dsimp only [V, hostOps0]; after_results; rfl

theorem found_v9 : (V m c main_v9 : S64.Idx → EReal)
    = Cert.ReferenceIdeal.Read.val_main_v27 (F := Ideal) (m ((c : Thread nD τ).loc main_arg5)) := by
  dsimp only [V, hostOps0]; after_results; rfl

theorem found_v12 : (V m c main_v12 : S192x2048.Idx → EReal)
    = concatenate S192x2048 0 [⟨S64x2048, Cert.ReferenceIdeal.Read.val_main_v25 (F := Ideal) (m ((c : Thread nD τ).loc main_arg5))⟩,
        ⟨S128x2048, m ((c : Thread nD τ).loc main_arg1)⟩] concatenates_S64x2048_S128x2048_S192x2048_d0 := by
  dsimp only [V, hostOps0]; after_results; rfl

theorem found_v7 : (V m c main_v7 : S2048x512.Idx → EReal)
    = Cert.ReferenceIdeal.Read.val_main_v35 (F := Ideal) (m ((c : Thread nD τ).loc main_arg7)) := by
  dsimp only [V, hostOps0]; after_results; rfl

end Found

/-! ## The stacked weights, and the real entries -/

section Law
variable (c : Dev nD)

/-- The stack of `W3ᵀ` over `W1`, read at `(q, d)`. -/
theorem stacked (q : Fin 192) (d : Fin 2048) :
    (V m c main_v12 : S192x2048.Idx → EReal) (ix2 q d)
      = joined (fun k => Cert.ReferenceIdeal.Read.val_main_v25 (F := Ideal) (m ((c : Thread nD τ).loc main_arg5)) (ix2 k d))
          (fun j => (m ((c : Thread nD τ).loc main_arg1) : S128x2048.Idx → EReal) (ix2 j d)) q := by
  rw [found_v12]
  unfold joined
  by_cases hq : q.val < 64
  · rw [dif_pos hq]
    exact above_upper _ _ concatenates_S64x2048_S128x2048_S192x2048_d0 q d hq
  · rw [dif_neg hq]
    have hb : q.val - 64 < 128 := by have := q.isLt; omega
    exact above_lower _ _ concatenates_S64x2048_S128x2048_S192x2048_d0 q d (by omega) hb

/-- The column sums of a real matrix are real: each is zero plus a finite sum of real numbers. -/
theorem colsums_real (h5 : ∀ i, ∃ r : ℝ, (m ((c : Thread nD τ).loc main_arg5) : S2048x64.Idx → EReal) i = (r : EReal)) (k : Fin 64) :
    IsReal ((V m c main_v9 : S64.Idx → EReal) (ix1 k)) := by
  rw [found_v9, Cert.ReferenceIdeal.Read.val_main_v27_apply]
  refine IsReal.add ?_ (isReal_sum _ fun d => h5 _)
  show IsReal (Ideal.ofBits .f32 0x00000000#32)
  rw [Ideal.ofBits_zero_f32]
  exact isReal_zero

/-- Under real `W1`, `W2`, `W3` the kernel's result array is the reference's result stage of the same arguments. -/
theorem result_eq
    (h1 : ∀ i, ∃ r : ℝ, (m ((c : Thread nD τ).loc main_arg1) : S128x2048.Idx → EReal) i = (r : EReal))
    (h3 : ∀ i, ∃ r : ℝ, (m ((c : Thread nD τ).loc main_arg3) : S64x128.Idx → EReal) i = (r : EReal))
    (h5 : ∀ i, ∃ r : ℝ, (m ((c : Thread nD τ).loc main_arg5) : S2048x64.Idx → EReal) i = (r : EReal)) :
    Cert.ReferenceIdeal.Read.val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg7)) (m ((c : Thread nD τ).loc main_arg8))
      = Cert.KernelIdeal.Whole.GV m c := by
  funext i
  obtain ⟨a, o, rfl⟩ : ∃ (a : Fin 8192) (o : Fin 512), i = ix2 a o := ⟨i 0, i 1, eq_ix2 i⟩
  rw [Cert.ReferenceIdeal.Row.v39_apply]
  show _ = kernelRow (V m c main_v2) (V m c main_arg2) (V m c main_v4) (V m c main_arg4) (V m c main_v5) (V m c main_v8)
      (V m c main_v9) (V m c main_v12) (V m c main_v7) (V m c main_arg8) (fun k => (V m c main_v0 : S8192x2048.Idx → EReal) (ix2 a k)) o
  rw [kernelRow_eq_refRow (V m c main_v2) (V m c main_arg2) (V m c main_v4) (V m c main_arg4) (V m c main_v5) (V m c main_v8)
      (V m c main_v9) (Cert.ReferenceIdeal.Read.val_main_v25 (F := Ideal) (m ((c : Thread nD τ).loc main_arg5)))
      (m ((c : Thread nD τ).loc main_arg1)) (V m c main_v12) (V m c main_v7) (V m c main_arg8)
      (stacked m c) (colsums_real m c h5) (fun k j => by rw [found_v5]; exact h3 _) (fun j d => h1 _)]
  rw [found_v0, found_v2, found_v4, found_v5, found_v8, found_v9, found_v7, V_main_arg2, V_main_arg4, V_main_arg8]

end Law

end Cert.Bridge

end
-- ==== Proof.lean ====
/-
  A two-layer ReLU network's antisymmetrised Jacobian, applied to the all-ones vector and projected:
  the tiled kernel against the plain reference, over the extended reals.

  For each of 8192 rows `x` of the flattened input both programs compute the gates `g1 = [x·W1ᵀ + b1 > 0]`,
  `g2 = [(h1 * g1)·W2ᵀ + b2 > 0]`, then `f = ((g1 * rowsums W1)·W2ᵀ) * g2` and `b = ((g2 * colsums W3)·W2) * g1`,
  and project `v·Wpᵀ + bp`. The reference takes `v = f·W3ᵀ - b·W1`. The kernel works on tiles of 1024 rows and takes
  ONE product of the joined row `(f, 0 - b)` with the stack of `W3ᵀ` over `W1`. Exactly: a change of float format is
  the identity, a matrix product into zero and the host's product are the same sum, a sum over 192 terms is the
  sum of its 64 and 128, and `∑ (0 - b j) * w j = -(∑ b j * w j)` because the terms are real numbers — this is where
  the precondition (every input finite) is used: `W1`, `W2`, `W3` real make `b` and `W1` real, the gates being 0 or 1.

  The modules: `RowSpec` (the row function and the law), `KernelRow` (the kernel body's values at an entry),
  `KernelValue` (from the tiles to the whole result array), `RefRow` (the reference's stages at an entry), `Finite`
  (the precondition read as "every entry is real"), `Bridge` (the arrays the region finds are the reference's own
  stages; the two results agree). The three frames are the programs' runs with the result dropped; the
  idealisation rewrote nothing, so `preserves` is `True`.
-/
import proofs.«105705_j89988154786346_2_alg».proof.Defs
import proofs.«105705_j89988154786346_2_alg».proof.Proof.Gen.Kernel
import proofs.«105705_j89988154786346_2_alg».proof.Proof.Gen.Kernel.Skeleton
import proofs.«105705_j89988154786346_2_alg».proof.Proof.Gen.Kernel.Launch
import proofs.«105705_j89988154786346_2_alg».proof.Proof.Gen.Kernel.Points
import proofs.«105705_j89988154786346_2_alg».proof.Proof.Gen.Kernel.Frame
import proofs.«105705_j89988154786346_2_alg».proof.Proof.Gen.KernelIdeal
import proofs.«105705_j89988154786346_2_alg».proof.Proof.Gen.KernelIdeal.Skeleton
import proofs.«105705_j89988154786346_2_alg».proof.Proof.Gen.KernelIdeal.Launch
import proofs.«105705_j89988154786346_2_alg».proof.Proof.Gen.KernelIdeal.Points
import proofs.«105705_j89988154786346_2_alg».proof.Proof.Gen.KernelIdeal.Frame
import proofs.«105705_j89988154786346_2_alg».proof.Proof.Gen.ReferenceIdeal
import proofs.«105705_j89988154786346_2_alg».proof.Proof.Gen.KernelIdeal.Value
import proofs.«105705_j89988154786346_2_alg».proof.Proof.Gen.ReferenceIdeal.Run
import proofs.«105705_j89988154786346_2_alg».proof.Proof.Gen.ReferenceIdeal.Read
import proofs.«105705_j89988154786346_2_alg».proof.Proof.Gen.Pre_finite_inputs
import proofs.«105705_j89988154786346_2_alg».proof.Proof.Finite
import proofs.«105705_j89988154786346_2_alg».proof.Proof.Bridge
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments, both programs end with one result array: the kernel's eight tiles
    are `KernelIdeal.Whole.GV` (the kernel's row function of each input row), the reference's result is its last
    stage, and under finite `W1`, `W2`, `W3` the two are equal (`Bridge.result_eq`). -/
theorem algebraic : Cert.algebraic_KernelIdeal_ReferenceIdeal := by
  intro m ρ m' ρ' hpre hagree
  refine ⟨fun c => Cert.KernelIdeal.Whole.GV m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h3, h5⟩ := Cert.FiniteArgs.real_of_pre m hpre c
  rw [Cert.ReferenceIdeal.Read.val_main_v39_eq, (hagree c).1, (hagree c).2.1, (hagree c).2.2.1, (hagree c).2.2.2.1,
    (hagree c).2.2.2.2.1, (hagree c).2.2.2.2.2.1, (hagree c).2.2.2.2.2.2.2.1, (hagree c).2.2.2.2.2.2.2.2]
  exact Cert.Bridge.result_eq m c h1 h3 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
